-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 76
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x64, .f32⟩
  | .hbm, ⟨75, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRunResult.lean ====
/-
  The idealized kernel's run, with its result buffer named.

  Every weakly fair execution of the program ends, nothing faulting, with the argument arrays as launched and with
  the result array at the contents the last region's write-backs leave: the value at the result's buffer of the fold
  of the host stretches and the three regions over the launch memory (`W6`). This is the launch over the program's six
  segments with one more buffer read off the final thread state — the result's, next to the arguments'.
-/
import proofs.«108129_j7919919693881_1_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the fold's value, the arguments unchanged. -/
theorem run_result : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Run

end
-- ==== Proof.SageDense.lean ====
/-
  The dense stage of one mean-aggregating graph-convolution layer, entry by entry, on the extended reals.

  For node features `h` and aggregated neighbour features `a` (both `R × K`), weights `ws`, `wn` (both `K × N`) and a bias
  `b` (length `N`), entry `(p, q)` of the layer's pre-activation is
      (∑ₖ h (p, k) · ws (k, q) + ∑ₖ a (p, k) · wn (k, q)) + b q,
  the two products summed first and the bias added last; a rectified layer takes the maximum of that with zero. Both
  programs compute exactly this grouping, so no law of the extended reals beyond reading each operation at an entry is
  needed, and the inputs' finiteness is never used.
-/
import Idealize.ShloMosaic.Lib.ValueIdx
import Idealize.ShloMosaic.PureOps.Ideal.Laws

noncomputable section

open scoped BigOperators

namespace Cert.Sage

open Idealize.ShloMosaic Idealize.ShloMosaic.ValueIdx

variable {R K N : ℕ}

/-- Entry `(p, q)` of `h · ws + a · wn + b`: the self term plus the neighbour term, then the bias of column `q`. -/
def affineAt (h a : FVec Ideal ⟨2, ![R, K]⟩ .f32) (ws wn : FVec Ideal ⟨2, ![K, N]⟩ .f32) (b : FVec Ideal ⟨1, ![N]⟩ .f32)
    (p : Fin R) (q : Fin N) : Ideal .f32 :=
  ((∑ k : Fin K, h (ix2 p k) * ws (ix2 k q)) + (∑ k : Fin K, a (ix2 p k) * wn (ix2 k q))) + b (ix1 q)

/-- The layer without activation, as one array. -/
def affine (h a : FVec Ideal ⟨2, ![R, K]⟩ .f32) (ws wn : FVec Ideal ⟨2, ![K, N]⟩ .f32) (b : FVec Ideal ⟨1, ![N]⟩ .f32) :
    FVec Ideal ⟨2, ![R, N]⟩ .f32 :=
  fun i => affineAt h a ws wn b (i 0) (i 1)

/-- The rectified layer, as one array: the maximum of each entry with the zero word's value. -/
def rectified (h a : FVec Ideal ⟨2, ![R, K]⟩ .f32) (ws wn : FVec Ideal ⟨2, ![K, N]⟩ .f32) (b : FVec Ideal ⟨1, ![N]⟩ .f32) :
    FVec Ideal ⟨2, ![R, N]⟩ .f32 :=
  fun i => max (affineAt h a ws wn b (i 0) (i 1)) (Ideal.ofBits .f32 0x00000000#32)

theorem affine_ix2 (h a : FVec Ideal ⟨2, ![R, K]⟩ .f32) (ws wn : FVec Ideal ⟨2, ![K, N]⟩ .f32) (b : FVec Ideal ⟨1, ![N]⟩ .f32)
    (p : Fin R) (q : Fin N) : affine h a ws wn b (ix2 p q) = affineAt h a ws wn b p q := rfl

theorem rectified_ix2 (h a : FVec Ideal ⟨2, ![R, K]⟩ .f32) (ws wn : FVec Ideal ⟨2, ![K, N]⟩ .f32) (b : FVec Ideal ⟨1, ![N]⟩ .f32)
    (p : Fin R) (q : Fin N) :
    rectified h a ws wn b (ix2 p q) = max (affineAt h a ws wn b p q) (Ideal.ofBits .f32 0x00000000#32) := rfl

/-- An array of shape `R × N` is determined by its entries at `(p, q)`. -/
theorem ext_ix2 {α : Type} {f g : (⟨2, ![R, N]⟩ : Shape).Idx → α} (hfg : ∀ (p : Fin R) (q : Fin N), f (ix2 p q) = g (ix2 p q)) :
    f = g :=
  funext fun i => by rw [eq_ix2 i]; exact hfg _ _

end Cert.Sage

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KernelLayer0.lean ====
/-
  What the first dense kernel leaves in its output array, as one function of the arrays it is launched on.

  The kernel runs over 20 row blocks of 5000 nodes. At block `t` its body loads the block's rows of the node features and of
  the aggregated features, the two whole weight matrices and the bias row, and stores
  `max 0 (x · ws + a · wn + b)` for those rows: the two products are matrix products into a zero accumulator (the format
  changes around them are the identity on the extended reals), the bias row is broadcast down the block, and the
  rectifier is a maximum with the zero word. Entry `(p, q)` of the block is therefore the dense stage's entry at row `t · 5000 + p`
  (`pay_at`, the block reads `emb_*`), each written block is that block of the whole-array function (`flushed_eq`), the
  20 blocks tile the array (`cover`), and so the array ends holding the whole-array function (`array_eq`) — for ANY
  contents `V` the region is entered with.
-/
import proofs.«108129_j7919919693881_1_alg».proof.Proof.KernelIdealFrameP
import proofs.«108129_j7919919693881_1_alg».proof.Proof.SageDense
import proofs.«108129_j7919919693881_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer0

open Cert.KernelIdeal Cert.KernelIdeal.Gen Cert.KernelIdeal.GenP
open Idealize.ShloMosaic Idealize.ShloMosaic.TcCoe Idealize.SL.Sem Idealize.ShloMosaic.ValueIdx

/-- The printed dimension numbers are those of a plain `5000 × 128` by `128 × 128` product. -/
theorem dotK : dot_S5000x128_S128x128_S5000x128_1_0_0_1_n_n = DotDims.plain 5000 128 128 := rfl

/-- The body's stored value at entry `(p, q)` of the block, from the loaded blocks. -/
theorem pay_at (x0 x1 : Vec Ideal S5000x128 .f32) (x2 x3 : Vec Ideal S128x128 .f32) (x4 : Vec Ideal S1x128 .f32) (p : Fin 5000) (q : Fin 128) :
    k0_pay1 (F := Ideal) x0 x1 x2 x3 x4 (ix2 p q)
      = max (Cert.Sage.affineAt x0 x1 x2 x3 (fun j => x4 (ix2 (0 : Fin 1) (j 0))) p q) (Ideal.ofBits .f32 0x00000000#32) := by
  unfold k0_pay1 Cert.Sage.affineAt
  dsimp only
  rw [maximumf_apply, addf_apply, addf_apply, broadcast_apply]
  rw [shapeCast_self, shapeCast_self]
  rw [broadcastTo_apply _ _ _ (ix2 (0 : Fin 1) q) (fun a => by match a with | ⟨0, _⟩ => rfl | ⟨1, _⟩ => rfl)]
  simp only [matmul, dotK]
  rw [Cert.Lib.PlainDot.matmul_zero_apply, Cert.Lib.PlainDot.matmul_zero_apply]
  rfl

theorem hz : (![0, 0] : Fin 2 → Nat) = fun _ => 0 := funext fun a => by fin_cases a <;> rfl

/-- The printed index maps over the grid: the row-blocked windows sit at block row `t`, column block 0; the weights and the
    bias are the one block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt_grid (t : Fin cfg0.N) : t.val < 20 := lt_of_lt_of_eq t.isLt N_0

/-- Row `p` of block `t` is row `t · 5000 + p` of the array. -/
def row (t : Fin cfg0.N) (p : Fin 5000) : Fin 100000 := ⟨t.val * 5000 + p.val, by have := lt_grid t; have := p.isLt; omega⟩

theorem emb_0 (t : Fin cfg0.N) (p : Fin 5000) (k : Fin 128) : ((cfg0.win 0).blk t).view.emb (ix2 p k) = ix2 (row t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_1 (t : Fin cfg0.N) (p : Fin 5000) (k : Fin 128) : ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

theorem emb_2 (t : Fin cfg0.N) (k : Fin 128) (q : Fin 128) : ((cfg0.win 2).blk t).view.emb (ix2 k q) = ix2 k q := by
  obtain ⟨-, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem emb_3 (t : Fin cfg0.N) (k : Fin 128) (q : Fin 128) : ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem emb_4 (t : Fin cfg0.N) (q : Fin 128) : ((cfg0.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 128 + 1 * q.val = q.val; omega

theorem emb_5 (t : Fin cfg0.N) (p : Fin 5000) (q : Fin 128) : ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

section Region

variable (V : (c : Dev nD) → (b : Ref sig .tc) → Buf (Elt Ideal) ((c : Thread nD τ).loc b))

/-- The whole-array function the region computes from the arrays it is entered with: the dense stage of the node
    features, the aggregated features, the two weight matrices and the bias (stored as a `1 × 128` row). -/
def out (c : Dev nD) : FVec Ideal ⟨2, ![100000, 128]⟩ .f32 :=
  Cert.Sage.rectified (V c main_arg0) (V c main_v20) (V c main_arg3) (V c main_arg4) (fun j => V c main_v21 (ix2 (0 : Fin 1) (j 0)))

/-- What point `t` writes back is block `t` of that function. -/
theorem flushed_eq (c : Dev nD) (t : Fin cfg0.N) :
    (dat0 (F := Ideal) V c).flushed 5 t = ((cfg0.win 5).blk t).view.read (Elt Ideal) (out V c) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_at (iblk0 V c 0 t) (iblk0 V c 1 t) (iblk0 V c 2 t) (iblk0 V c 3 t) (iblk0 V c 4 t) p q).trans ?_
  show _ = out V c (((cfg0.win 5).blk t).view.emb (ix2 p q))
  rw [emb_5 t p q]
  unfold out
  rw [Cert.Sage.rectified_ix2]
  have s0 : ∀ k : Fin 128, iblk0 V c 0 t (ix2 p k) = V c main_arg0 (ix2 (row t p) k) := fun k => congrArg (V c main_arg0) (emb_0 t p k)
  have s1 : ∀ k : Fin 128, iblk0 V c 1 t (ix2 p k) = V c main_v20 (ix2 (row t p) k) := fun k => congrArg (V c main_v20) (emb_1 t p k)
  have s2 : ∀ k : Fin 128, iblk0 V c 2 t (ix2 k q) = V c main_arg3 (ix2 k q) := fun k => congrArg (V c main_arg3) (emb_2 t k q)
  have s3 : ∀ k : Fin 128, iblk0 V c 3 t (ix2 k q) = V c main_arg4 (ix2 k q) := fun k => congrArg (V c main_arg4) (emb_3 t k q)
  have s4 : iblk0 V c 4 t (ix2 (0 : Fin 1) q) = V c main_v21 (ix2 (0 : Fin 1) q) := congrArg (V c main_v21) (emb_4 t q)
  unfold Cert.Sage.affineAt
  refine congrArg (fun z => max z (Ideal.ofBits .f32 0x00000000#32)) ?_
  refine congrArg₂ (· + ·) (congrArg₂ (· + ·) (Finset.sum_congr rfl fun k _ => ?_) (Finset.sum_congr rfl fun k _ => ?_)) s4
  · rw [s0 k, s2 k]
  · rw [s1 k, s3 k]

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every row of the array lies in the block of the point `row / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the whole-array function of the entry contents. -/
theorem array_eq (c : Dev nD) : (dat0 (F := Ideal) V c).arrAt 5 cfg0.N = out V c :=
  (dat0 (F := Ideal) V c).arrAt_eq_of_cover 5 (out V c) (fun t _ => flushed_eq V c t) (cover)

end Region

end Cert.KernelIdeal.Layer0

end
-- ==== Proof.KernelLayer1.lean ====
/-
  What the second dense kernel leaves in its output array, as one function of the arrays it is launched on.

  The kernel runs over 20 row blocks of 5000 nodes. At block `t` its body loads the block's rows of the node features and of
  the aggregated features, the two whole weight matrices and the bias row, and stores
  `max 0 (x · ws + a · wn + b)` for those rows: the two products are matrix products into a zero accumulator (the format
  changes around them are the identity on the extended reals), the bias row is broadcast down the block, and the
  rectifier is a maximum with the zero word. Entry `(p, q)` of the block is therefore the dense stage's entry at row `t · 5000 + p`
  (`pay_at`, the block reads `emb_*`), each written block is that block of the whole-array function (`flushed_eq`), the
  20 blocks tile the array (`cover`), and so the array ends holding the whole-array function (`array_eq`) — for ANY
  contents `V` the region is entered with.
-/
import proofs.«108129_j7919919693881_1_alg».proof.Proof.KernelIdealFrameP
import proofs.«108129_j7919919693881_1_alg».proof.Proof.SageDense
import proofs.«108129_j7919919693881_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Cert.KernelIdeal.GenP
open Idealize.ShloMosaic Idealize.ShloMosaic.TcCoe Idealize.SL.Sem Idealize.ShloMosaic.ValueIdx

/-- The printed dimension numbers are those of a plain `5000 × 128` by `128 × 128` product. -/
theorem dotK : dot_S5000x128_S128x128_S5000x128_1_0_0_1_n_n = DotDims.plain 5000 128 128 := rfl

/-- The body's stored value at entry `(p, q)` of the block, from the loaded blocks. -/
theorem pay_at (x0 x1 : Vec Ideal S5000x128 .f32) (x2 x3 : Vec Ideal S128x128 .f32) (x4 : Vec Ideal S1x128 .f32) (p : Fin 5000) (q : Fin 128) :
    k1_pay1 (F := Ideal) x0 x1 x2 x3 x4 (ix2 p q)
      = max (Cert.Sage.affineAt x0 x1 x2 x3 (fun j => x4 (ix2 (0 : Fin 1) (j 0))) p q) (Ideal.ofBits .f32 0x00000000#32) := by
  unfold k1_pay1 Cert.Sage.affineAt
  dsimp only
  rw [maximumf_apply, addf_apply, addf_apply, broadcast_apply]
  rw [shapeCast_self, shapeCast_self, shapeCast_self]
  rw [broadcastTo_apply _ _ _ (ix2 (0 : Fin 1) q) (fun a => by match a with | ⟨0, _⟩ => rfl | ⟨1, _⟩ => rfl)]
  simp only [matmul, dotK]
  rw [Cert.Lib.PlainDot.matmul_zero_apply, Cert.Lib.PlainDot.matmul_zero_apply]
  rfl

theorem hz : (![0, 0] : Fin 2 → Nat) = fun _ => 0 := funext fun a => by fin_cases a <;> rfl

/-- The printed index maps over the grid: the row-blocked windows sit at block row `t`, column block 0; the weights and the
    bias are the one block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt_grid (t : Fin cfg1.N) : t.val < 20 := lt_of_lt_of_eq t.isLt N_1

/-- Row `p` of block `t` is row `t · 5000 + p` of the array. -/
def row (t : Fin cfg1.N) (p : Fin 5000) : Fin 100000 := ⟨t.val * 5000 + p.val, by have := lt_grid t; have := p.isLt; omega⟩

theorem emb_0 (t : Fin cfg1.N) (p : Fin 5000) (k : Fin 128) : ((cfg1.win 0).blk t).view.emb (ix2 p k) = ix2 (row t p) k := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb_1 (t : Fin cfg1.N) (p : Fin 5000) (k : Fin 128) : ((cfg1.win 1).blk t).view.emb (ix2 p k) = ix2 (row t p) k := by
  obtain ⟨-, -, e0, e1, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

theorem emb_2 (t : Fin cfg1.N) (k : Fin 128) (q : Fin 128) : ((cfg1.win 2).blk t).view.emb (ix2 k q) = ix2 k q := by
  obtain ⟨-, -, -, -, e0, e1, -⟩ := idx_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb_3 (t : Fin cfg1.N) (k : Fin 128) (q : Fin 128) : ((cfg1.win 3).blk t).view.emb (ix2 k q) = ix2 k q := by
  obtain ⟨-, -, -, -, -, -, e0, e1, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb_4 (t : Fin cfg1.N) (q : Fin 128) : ((cfg1.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win1_4.index t (0 : Fin 2) * 1 + 1 * 0 = 0; omega
  | ⟨1, _⟩ => show win1_4.index t (1 : Fin 2) * 128 + 1 * q.val = q.val; omega

theorem emb_5 (t : Fin cfg1.N) (p : Fin 5000) (q : Fin 128) : ((cfg1.win 5).blk t).view.emb (ix2 p q) = ix2 (row t p) q := by
  obtain ⟨-, -, -, -, -, -, -, -, -, -, e0, e1⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

section Region

variable (V : (c : Dev nD) → (b : Ref sig .tc) → Buf (Elt Ideal) ((c : Thread nD τ).loc b))

/-- The whole-array function the region computes from the arrays it is entered with: the dense stage of the node
    features, the aggregated features, the two weight matrices and the bias (stored as a `1 × 128` row). -/
def out (c : Dev nD) : FVec Ideal ⟨2, ![100000, 128]⟩ .f32 :=
  Cert.Sage.rectified (V c main_v22) (V c main_v34) (V c main_arg6) (V c main_arg7) (fun j => V c main_v35 (ix2 (0 : Fin 1) (j 0)))

/-- What point `t` writes back is block `t` of that function. -/
theorem flushed_eq (c : Dev nD) (t : Fin cfg1.N) :
    (dat1 (F := Ideal) V c).flushed 5 t = ((cfg1.win 5).blk t).view.read (Elt Ideal) (out V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (pay_at (iblk1 V c 0 t) (iblk1 V c 1 t) (iblk1 V c 2 t) (iblk1 V c 3 t) (iblk1 V c 4 t) p q).trans ?_
  show _ = out V c (((cfg1.win 5).blk t).view.emb (ix2 p q))
  rw [emb_5 t p q]
  unfold out
  rw [Cert.Sage.rectified_ix2]
  have s0 : ∀ k : Fin 128, iblk1 V c 0 t (ix2 p k) = V c main_v22 (ix2 (row t p) k) := fun k => congrArg (V c main_v22) (emb_0 t p k)
  have s1 : ∀ k : Fin 128, iblk1 V c 1 t (ix2 p k) = V c main_v34 (ix2 (row t p) k) := fun k => congrArg (V c main_v34) (emb_1 t p k)
  have s2 : ∀ k : Fin 128, iblk1 V c 2 t (ix2 k q) = V c main_arg6 (ix2 k q) := fun k => congrArg (V c main_arg6) (emb_2 t k q)
  have s3 : ∀ k : Fin 128, iblk1 V c 3 t (ix2 k q) = V c main_arg7 (ix2 k q) := fun k => congrArg (V c main_arg7) (emb_3 t k q)
  have s4 : iblk1 V c 4 t (ix2 (0 : Fin 1) q) = V c main_v35 (ix2 (0 : Fin 1) q) := congrArg (V c main_v35) (emb_4 t q)
  unfold Cert.Sage.affineAt
  refine congrArg (fun z => max z (Ideal.ofBits .f32 0x00000000#32)) ?_
  refine congrArg₂ (· + ·) (congrArg₂ (· + ·) (Finset.sum_congr rfl fun k _ => ?_) (Finset.sum_congr rfl fun k _ => ?_)) s4
  · rw [s0 k, s2 k]
  · rw [s1 k, s3 k]

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- Every row of the array lies in the block of the point `row / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨-, -, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the whole-array function of the entry contents. -/
theorem array_eq (c : Dev nD) : (dat1 (F := Ideal) V c).arrAt 5 cfg1.N = out V c :=
  (dat1 (F := Ideal) V c).arrAt_eq_of_cover 5 (out V c) (fun t _ => flushed_eq V c t) (cover)

end Region

end Cert.KernelIdeal.Layer1

end
-- ==== Proof.KernelLayer2.lean ====
/-
  What the third dense kernel leaves in its output array, as one function of the arrays it is launched on.

  The kernel runs over 20 row blocks of 5000 nodes. At block `t` its body loads the block's rows of the node features and of
  the aggregated features, the two whole weight matrices and the bias row, and stores
  `(x · ws + a · wn + b)` for those rows: the two products are matrix products into a zero accumulator (the format
  changes around them are the identity on the extended reals), the bias row is broadcast down the block. Entry `(p, q)` of the block is therefore the dense stage's entry at row `t · 5000 + p`
  (`pay_at`, the block reads `emb_*`), each written block is that block of the whole-array function (`flushed_eq`), the
  20 blocks tile the array (`cover`), and so the array ends holding the whole-array function (`array_eq`) — for ANY
  contents `V` the region is entered with.
-/
import proofs.«108129_j7919919693881_1_alg».proof.Proof.KernelIdealFrameP
import proofs.«108129_j7919919693881_1_alg».proof.Proof.SageDense
import proofs.«108129_j7919919693881_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Cert.KernelIdeal.GenP
open Idealize.ShloMosaic Idealize.ShloMosaic.TcCoe Idealize.SL.Sem Idealize.ShloMosaic.ValueIdx

/-- The printed dimension numbers are those of a plain `5000 × 128` by `128 × 64` product. -/
theorem dotK : dot_S5000x128_S128x64_S5000x64_1_0_0_1_n_n = DotDims.plain 5000 128 64 := rfl

/-- The body's stored value at entry `(p, q)` of the block, from the loaded blocks. -/
theorem pay_at (x0 x1 : Vec Ideal S5000x128 .f32) (x2 x3 : Vec Ideal S128x64 .f32) (x4 : Vec Ideal S1x64 .f32) (p : Fin 5000) (q : Fin 64) :
    k2_pay1 (F := Ideal) x0 x1 x2 x3 x4 (ix2 p q)
      = Cert.Sage.affineAt x0 x1 x2 x3 (fun j => x4 (ix2 (0 : Fin 1) (j 0))) p q := by
  unfold k2_pay1 Cert.Sage.affineAt
  dsimp only
  rw [addf_apply, addf_apply]
  rw [shapeCast_self, shapeCast_self, shapeCast_self]
  rw [broadcastTo_apply _ _ _ (ix2 (0 : Fin 1) q) (fun a => by match a with | ⟨0, _⟩ => rfl | ⟨1, _⟩ => rfl)]
  simp only [matmul, dotK]
  rw [Cert.Lib.PlainDot.matmul_zero_apply, Cert.Lib.PlainDot.matmul_zero_apply]
  rfl

theorem hz : (![0, 0] : Fin 2 → Nat) = fun _ => 0 := funext fun a => by fin_cases a <;> rfl

/-- The printed index maps over the grid: the row-blocked windows sit at block row `t`, column block 0; the weights and the
    bias are the one block `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt_grid (t : Fin cfg2.N) : t.val < 20 := lt_of_lt_of_eq t.isLt N_2

/-- Row `p` of block `t` is row `t · 5000 + p` of the array. -/
def row (t : Fin cfg2.N) (p : Fin 5000) : Fin 100000 := ⟨t.val * 5000 + p.val, by have := lt_grid t; have := p.isLt; omega⟩

theorem emb_0 (t : Fin cfg2.N) (p : Fin 5000) (k : Fin 128) : ((cfg2.win 0).blk t).view.emb (ix2 p k) = ix2 (row t p) k := by
  obtain ⟨e0, e1, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem emb_1 (t : Fin cfg2.N) (p : Fin 5000) (k : Fin 128) : ((cfg2.win 1).blk t).view.emb (ix2 p k) = ix2 (row t p) k := by
  obtain ⟨-, -, e0, e1, -⟩ := idx_facts t
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

theorem emb_2 (t : Fin cfg2.N) (k : Fin 128) (q : Fin 64) : ((cfg2.win 2).blk t).view.emb (ix2 k q) = ix2 k q := by
  obtain ⟨-, -, -, -, e0, e1, -⟩ := idx_facts t
  funext a; apply Fin.ext
  match a with
  | ⟨0, _⟩ => show win2_2.index t (0 : Fin 2) * 128 + 1 * k.val = k.val; omega
  | ⟨1, _⟩ => show win2_2.index t (1 : Fin 2) * 64 + 1 * q.val = q.val; omega

theorem emb_3 (t : Fin cfg2.N) (k : Fin 128) (q : Fin 64) : ((cfg2.win 3).blk t).view.emb (ix2 k q) = ix2 k q := by
  obtain ⟨-, -, -, -, -, -, e0, e1, -⟩ := idx_facts t
  funext a; apply Fin.ext
  match a with
  | ⟨0, _⟩ => show win2_3.index t (0 : Fin 2) * 128 + 1 * k.val = k.val; omega
  | ⟨1, _⟩ => show win2_3.index t (1 : Fin 2) * 64 + 1 * q.val = q.val; omega

theorem emb_4 (t : Fin cfg2.N) (q : Fin 64) : ((cfg2.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win2_4.index t (0 : Fin 2) * 1 + 1 * 0 = 0; omega
  | ⟨1, _⟩ => show win2_4.index t (1 : Fin 2) * 64 + 1 * q.val = q.val; omega

theorem emb_5 (t : Fin cfg2.N) (p : Fin 5000) (q : Fin 64) : ((cfg2.win 5).blk t).view.emb (ix2 p q) = ix2 (row t p) q := by
  obtain ⟨-, -, -, -, -, -, -, -, -, -, e0, e1⟩ := idx_facts t
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

section Region

variable (V : (c : Dev nD) → (b : Ref sig .tc) → Buf (Elt Ideal) ((c : Thread nD τ).loc b))

/-- The whole-array function the region computes from the arrays it is entered with: the dense stage of the node
    features, the aggregated features, the two weight matrices and the bias (stored as a `1 × 64` row). -/
def out (c : Dev nD) : FVec Ideal ⟨2, ![100000, 64]⟩ .f32 :=
  Cert.Sage.affine (V c main_v36) (V c main_v48) (V c main_arg9) (V c main_arg10) (fun j => V c main_v49 (ix2 (0 : Fin 1) (j 0)))

/-- What point `t` writes back is block `t` of that function. -/
theorem flushed_eq (c : Dev nD) (t : Fin cfg2.N) :
    (dat2 (F := Ideal) V c).flushed 5 t = ((cfg2.win 5).blk t).view.read (Elt Ideal) (out V c) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  refine (pay_at (iblk2 V c 0 t) (iblk2 V c 1 t) (iblk2 V c 2 t) (iblk2 V c 3 t) (iblk2 V c 4 t) p q).trans ?_
  show _ = out V c (((cfg2.win 5).blk t).view.emb (ix2 p q))
  rw [emb_5 t p q]
  unfold out
  rw [Cert.Sage.affine_ix2]
  have s0 : ∀ k : Fin 128, iblk2 V c 0 t (ix2 p k) = V c main_v36 (ix2 (row t p) k) := fun k => congrArg (V c main_v36) (emb_0 t p k)
  have s1 : ∀ k : Fin 128, iblk2 V c 1 t (ix2 p k) = V c main_v48 (ix2 (row t p) k) := fun k => congrArg (V c main_v48) (emb_1 t p k)
  have s2 : ∀ k : Fin 128, iblk2 V c 2 t (ix2 k q) = V c main_arg9 (ix2 k q) := fun k => congrArg (V c main_arg9) (emb_2 t k q)
  have s3 : ∀ k : Fin 128, iblk2 V c 3 t (ix2 k q) = V c main_arg10 (ix2 k q) := fun k => congrArg (V c main_arg10) (emb_3 t k q)
  have s4 : iblk2 V c 4 t (ix2 (0 : Fin 1) q) = V c main_v49 (ix2 (0 : Fin 1) q) := congrArg (V c main_v49) (emb_4 t q)
  unfold Cert.Sage.affineAt
  refine congrArg₂ (· + ·) (congrArg₂ (· + ·) (Finset.sum_congr rfl fun k _ => ?_) (Finset.sum_congr rfl fun k _ => ?_)) s4
  · rw [s0 k, s2 k]
  · rw [s1 k, s3 k]

/-- An index of the array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v50).slice (win2_5.rect t)).set ↔ _
  rw [View.set_slice_whole, Rect.mem_set_unit]
  exact Iff.rfl

/-- Every row of the array lies in the block of the point `row / 5000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 5000, lt_of_lt_of_eq (by omega : (i 0).val / 5000 < 20) N_2.symm⟩
  obtain ⟨-, -, -, -, -, -, -, -, -, -, e0, e1⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after the region: the whole-array function of the entry contents. -/
theorem array_eq (c : Dev nD) : (dat2 (F := Ideal) V c).arrAt 5 cfg2.N = out V c :=
  (dat2 (F := Ideal) V c).arrAt_eq_of_cover 5 (out V c) (fun t _ => flushed_eq V c t) (cover)

end Region

end Cert.KernelIdeal.Layer2

end
-- ==== Proof.KernelFold.lean ====
/-
  The idealized kernel's result array, read back through the program.

  Between the launch and the return the program alternates host stretches and kernel regions. Read at one buffer, each
  host stretch either leaves the buffer alone or writes one operation's value of earlier buffers, and each region
  leaves every buffer alone except its output array, which ends at the region's whole-array function of the arrays
  it was entered with (the three region modules). Walking the result buffer back through these steps gives the three
  layers composed: each layer the dense stage of the previous layer's output `h` and of its mean aggregation over the
  edges, `aggWith h src dst (invDeg dst)` — the inverse in-degree column is computed once, before the first region,
  and its buffer is read again, untouched, before the second and the third. The aggregation and the inverse degree
  stay closed terms of the host's operations; nothing here opens them.
-/
import proofs.«108129_j7919919693881_1_alg».proof.Proof.KernelIdealFrameP
import proofs.«108129_j7919919693881_1_alg».proof.Proof.KernelLayer0
import proofs.«108129_j7919919693881_1_alg».proof.Proof.KernelLayer1
import proofs.«108129_j7919919693881_1_alg».proof.Proof.KernelLayer2
import proofs.«108129_j7919919693881_1_alg».proof.Proof.SageDense
import Idealize.ShloMosaic.Lib.StableHlo.Run
import Idealize.ShloMosaic.Lib.ValueLayout
import Idealize.ShloMosaic.Lib.ValueIdx
import Idealize.ShloMosaic.PureOps.Ideal

set_option maxRecDepth 16384

noncomputable section

namespace Cert.KernelIdeal.Fold

open Cert.KernelIdeal Cert.KernelIdeal.Gen Cert.KernelIdeal.GenP
open Idealize.ShloMosaic Idealize.ShloMosaic.TcCoe Idealize.SL.Sem Idealize.ShloMosaic.StableHlo Idealize.ShloMosaic.ValueIdx

section Terms

variable {F : FTy → Type} [FloatOps F]

/-- One over the larger of a node's in-degree and one, as a column: the host counts the edges into each node by adding
    ones along `dst`, clamps below by one and divides one by it. -/
def invDeg (dst : (⟨S1600000, .i32⟩ : BufTy).Contents (Elt F)) : (⟨S100000x1, .f32⟩ : BufTy).Contents (Elt F) :=
  broadcastInDim S100000x1 ![0] bcast_S100000_S100000x1_0 (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))))

/-- The aggregation with the scaling column `w` given: the rows of `h` named by `src` (a negative index wrapped by the
    number of nodes) added into the rows named by `dst`, each row then multiplied by its entry of `w`. -/
def aggWith (h : (⟨S100000x128, .f32⟩ : BufTy).Contents (Elt F)) (src dst : (⟨S1600000, .i32⟩ : BufTy).Contents (Elt F))
    (w : (⟨S100000x1, .f32⟩ : BufTy).Contents (Elt F)) : (⟨S100000x128, .f32⟩ : BufTy).Contents (Elt F) :=
  mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 w)

end Terms

variable (m : (ℓ : Loc nD τ sig) → Buf (Elt Ideal) ℓ) (ρ : Dev nD → PrngReg)

/-! ## The three layers' outputs, as functions of the launch memory -/

/-- The first layer's output. -/
def h1 (c : Dev nD) : FVec Ideal ⟨2, ![100000, 128]⟩ .f32 :=
  Cert.Sage.rectified (m ((c : Thread nD τ).loc main_arg0)) (aggWith (m ((c : Thread nD τ).loc main_arg0)) (m ((c : Thread nD τ).loc main_arg1)) (m ((c : Thread nD τ).loc main_arg2)) (invDeg (m ((c : Thread nD τ).loc main_arg2)))) (m ((c : Thread nD τ).loc main_arg3)) (m ((c : Thread nD τ).loc main_arg4)) (m ((c : Thread nD τ).loc main_arg5))

/-- The second layer's output. -/
def h2 (c : Dev nD) : FVec Ideal ⟨2, ![100000, 128]⟩ .f32 :=
  Cert.Sage.rectified (h1 m c) (aggWith (h1 m c) (m ((c : Thread nD τ).loc main_arg1)) (m ((c : Thread nD τ).loc main_arg2)) (invDeg (m ((c : Thread nD τ).loc main_arg2)))) (m ((c : Thread nD τ).loc main_arg6)) (m ((c : Thread nD τ).loc main_arg7)) (m ((c : Thread nD τ).loc main_arg8))

/-- The third layer's output: the program's result. -/
def out (c : Dev nD) : FVec Ideal ⟨2, ![100000, 64]⟩ .f32 :=
  Cert.Sage.affine (h2 m c) (aggWith (h2 m c) (m ((c : Thread nD τ).loc main_arg1)) (m ((c : Thread nD τ).loc main_arg2)) (invDeg (m ((c : Thread nD τ).loc main_arg2)))) (m ((c : Thread nD τ).loc main_arg9)) (m ((c : Thread nD τ).loc main_arg10)) (m ((c : Thread nD τ).loc main_arg11))

/-! ## The first host stretch, from the launch memory -/

theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl
theorem W1_arg1 (c : Dev nD) : W1 m ρ c (Proc.devRef .tc main_arg1) = (m ((c : Thread nD τ).loc main_arg1)) := by
  show StableHlo.after hostOps0 (W0 m ρ c) (Proc.devRef .tc main_arg1) = _
  after_results_simp <;> rfl
theorem W1_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl
theorem W1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl
theorem W1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl
theorem W1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl
theorem W1_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl
theorem W1_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl
theorem W1_arg11 (c : Dev nD) : W1 m ρ c (Proc.devRef .tc main_arg11) = (m ((c : Thread nD τ).loc main_arg11)) := by
  show StableHlo.after hostOps0 (W0 m ρ c) (Proc.devRef .tc main_arg11) = _
  after_results_simp <;> rfl

theorem W1_v8 (c : Dev nD) : W1 m ρ c (Proc.devRef .tc main_v8) = invDeg (m ((c : Thread nD τ).loc main_arg2)) := by
  show StableHlo.after hostOps0 (W0 m ρ c) (Proc.devRef .tc main_v8) = _
  after_results_simp <;> rfl

theorem W1_v20 (c : Dev nD) : W1 m ρ c (Proc.devRef .tc main_v20) = aggWith (m ((c : Thread nD τ).loc main_arg0)) (m ((c : Thread nD τ).loc main_arg1)) (m ((c : Thread nD τ).loc main_arg2)) (invDeg (m ((c : Thread nD τ).loc main_arg2))) := by
  show StableHlo.after hostOps0 (W0 m ρ c) (Proc.devRef .tc main_v20) = _
  after_results_simp <;> rfl

theorem W1_v21 (c : Dev nD) : W1 m ρ c (Proc.devRef .tc main_v21) = shapeCast S1x128 (m ((c : Thread nD τ).loc main_arg5)) shapeCasts_S128_S1x128 := by
  show StableHlo.after hostOps0 (W0 m ρ c) (Proc.devRef .tc main_v21) = _
  after_results_simp <;> rfl

/-- A bias vector stored as a one-row matrix, read back along its row, is the vector. -/
theorem bias_row {n : ℕ} (b : (⟨1, ![n]⟩ : Shape).Idx → Ideal .f32) (h : (⟨1, ![n]⟩ : Shape).ShapeCasts ⟨2, ![1, n]⟩) :
    (fun j : (⟨1, ![n]⟩ : Shape).Idx => shapeCast ⟨2, ![1, n]⟩ b h (ix2 (0 : Fin 1) (j 0))) = b :=
  funext fun j => (shapeCast_a_1a_apply b h 0 (j 0)).trans (congrArg b (eq_ix1 j).symm)

/-! ## The first region -/

theorem W2_v22 (c : Dev nD) : W2 m ρ c (Proc.devRef .tc main_v22) = h1 m c := by
  refine (W2_arr m ρ c 5).trans ((Cert.KernelIdeal.Layer0.array_eq (V1 m ρ) c).trans ?_)
  unfold Cert.KernelIdeal.Layer0.out h1
  have e0 : V1 m ρ c main_arg0 = (m ((c : Thread nD τ).loc main_arg0)) := W1_arg0 m ρ c
  have e1 : V1 m ρ c main_v20 = aggWith (m ((c : Thread nD τ).loc main_arg0)) (m ((c : Thread nD τ).loc main_arg1)) (m ((c : Thread nD τ).loc main_arg2)) (invDeg (m ((c : Thread nD τ).loc main_arg2))) := W1_v20 m ρ c
  have e2 : V1 m ρ c main_arg3 = (m ((c : Thread nD τ).loc main_arg3)) := W1_arg3 m ρ c
  have e3 : V1 m ρ c main_arg4 = (m ((c : Thread nD τ).loc main_arg4)) := W1_arg4 m ρ c
  have e4 : V1 m ρ c main_v21 = shapeCast S1x128 (m ((c : Thread nD τ).loc main_arg5)) shapeCasts_S128_S1x128 := W1_v21 m ρ c
  rw [e0, e1, e2, e3, e4, bias_row]

/-! ## Buffers the first region and the later stretches leave alone -/

theorem W2_arg1 (c : Dev nD) : W2 m ρ c (Proc.devRef .tc main_arg1) = (m ((c : Thread nD τ).loc main_arg1)) :=
  (W2_of_ne m ρ c main_arg1 (by decide)).trans (W1_arg1 m ρ c)
theorem W3_arg1 (c : Dev nD) : W3 m ρ c (Proc.devRef .tc main_arg1) = (m ((c : Thread nD τ).loc main_arg1)) :=
  (show StableHlo.after hostOps1 (W2 m ρ c) (Proc.devRef .tc main_arg1) = W2 m ρ c (Proc.devRef .tc main_arg1) by after_results_simp <;> rfl).trans (W2_arg1 m ρ c)
theorem W4_arg1 (c : Dev nD) : W4 m ρ c (Proc.devRef .tc main_arg1) = (m ((c : Thread nD τ).loc main_arg1)) :=
  (W4_of_ne m ρ c main_arg1 (by decide)).trans (W3_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W3_arg2 (c : Dev nD) : W3 m ρ c (Proc.devRef .tc main_arg2) = (m ((c : Thread nD τ).loc main_arg2)) :=
  (show StableHlo.after hostOps1 (W2 m ρ c) (Proc.devRef .tc main_arg2) = W2 m ρ c (Proc.devRef .tc main_arg2) by after_results_simp <;> rfl).trans (W2_arg2 m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W2_v8 (c : Dev nD) : W2 m ρ c (Proc.devRef .tc main_v8) = invDeg (m ((c : Thread nD τ).loc main_arg2)) :=
  (W2_of_ne m ρ c main_v8 (by decide)).trans (W1_v8 m ρ c)
theorem W3_v8 (c : Dev nD) : W3 m ρ c (Proc.devRef .tc main_v8) = invDeg (m ((c : Thread nD τ).loc main_arg2)) :=
  (show StableHlo.after hostOps1 (W2 m ρ c) (Proc.devRef .tc main_v8) = W2 m ρ c (Proc.devRef .tc main_v8) by after_results_simp <;> rfl).trans (W2_v8 m ρ c)
theorem W4_v8 (c : Dev nD) : W4 m ρ c (Proc.devRef .tc main_v8) = invDeg (m ((c : Thread nD τ).loc main_arg2)) :=
  (W4_of_ne m ρ c main_v8 (by decide)).trans (W3_v8 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W3_arg9 (c : Dev nD) : W3 m ρ c (Proc.devRef .tc main_arg9) = (m ((c : Thread nD τ).loc main_arg9)) :=
  (show StableHlo.after hostOps1 (W2 m ρ c) (Proc.devRef .tc main_arg9) = W2 m ρ c (Proc.devRef .tc main_arg9) by after_results_simp <;> rfl).trans (W2_arg9 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W3_arg10 (c : Dev nD) : W3 m ρ c (Proc.devRef .tc main_arg10) = (m ((c : Thread nD τ).loc main_arg10)) :=
  (show StableHlo.after hostOps1 (W2 m ρ c) (Proc.devRef .tc main_arg10) = W2 m ρ c (Proc.devRef .tc main_arg10) by after_results_simp <;> rfl).trans (W2_arg10 m ρ c)
theorem W4_arg10 (c : Dev nD) : W4 m ρ c (Proc.devRef .tc main_arg10) = (m ((c : Thread nD τ).loc main_arg10)) :=
  (W4_of_ne m ρ c main_arg10 (by decide)).trans (W3_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)
theorem W3_arg11 (c : Dev nD) : W3 m ρ c (Proc.devRef .tc main_arg11) = (m ((c : Thread nD τ).loc main_arg11)) :=
  (show StableHlo.after hostOps1 (W2 m ρ c) (Proc.devRef .tc main_arg11) = W2 m ρ c (Proc.devRef .tc main_arg11) by after_results_simp <;> rfl).trans (W2_arg11 m ρ c)
theorem W4_arg11 (c : Dev nD) : W4 m ρ c (Proc.devRef .tc main_arg11) = (m ((c : Thread nD τ).loc main_arg11)) :=
  (W4_of_ne m ρ c main_arg11 (by decide)).trans (W3_arg11 m ρ c)

/-! ## The second host stretch and the second region -/

theorem W3_v22 (c : Dev nD) : W3 m ρ c (Proc.devRef .tc main_v22) = h1 m c :=
  (show StableHlo.after hostOps1 (W2 m ρ c) (Proc.devRef .tc main_v22) = W2 m ρ c (Proc.devRef .tc main_v22) by after_results_simp <;> rfl).trans (W2_v22 m ρ c)

theorem W3_v34 (c : Dev nD) : W3 m ρ c (Proc.devRef .tc main_v34) = aggWith (h1 m c) (m ((c : Thread nD τ).loc main_arg1)) (m ((c : Thread nD τ).loc main_arg2)) (invDeg (m ((c : Thread nD τ).loc main_arg2))) := by
  refine (show StableHlo.after hostOps1 (W2 m ρ c) (Proc.devRef .tc main_v34)
      = aggWith (W2 m ρ c (Proc.devRef .tc main_v22)) (W2 m ρ c (Proc.devRef .tc main_arg1)) (W2 m ρ c (Proc.devRef .tc main_arg2)) (W2 m ρ c (Proc.devRef .tc main_v8)) by
    after_results_simp <;> rfl).trans ?_
  rw [W2_v22, W2_arg1, W2_arg2, W2_v8]

theorem W3_arg6 (c : Dev nD) : W3 m ρ c (Proc.devRef .tc main_arg6) = (m ((c : Thread nD τ).loc main_arg6)) :=
  (show StableHlo.after hostOps1 (W2 m ρ c) (Proc.devRef .tc main_arg6) = W2 m ρ c (Proc.devRef .tc main_arg6) by after_results_simp <;> rfl).trans (W2_arg6 m ρ c)

theorem W3_arg7 (c : Dev nD) : W3 m ρ c (Proc.devRef .tc main_arg7) = (m ((c : Thread nD τ).loc main_arg7)) :=
  (show StableHlo.after hostOps1 (W2 m ρ c) (Proc.devRef .tc main_arg7) = W2 m ρ c (Proc.devRef .tc main_arg7) by after_results_simp <;> rfl).trans (W2_arg7 m ρ c)

theorem W3_v35 (c : Dev nD) : W3 m ρ c (Proc.devRef .tc main_v35) = shapeCast S1x128 (m ((c : Thread nD τ).loc main_arg8)) shapeCasts_S128_S1x128 := by
  refine (show StableHlo.after hostOps1 (W2 m ρ c) (Proc.devRef .tc main_v35)
      = shapeCast S1x128 (W2 m ρ c (Proc.devRef .tc main_arg8)) shapeCasts_S128_S1x128 by after_results_simp <;> rfl).trans ?_
  rw [W2_arg8]

theorem W4_v36 (c : Dev nD) : W4 m ρ c (Proc.devRef .tc main_v36) = h2 m c := by
  refine (W4_arr m ρ c 5).trans ((Cert.KernelIdeal.Layer1.array_eq (V3 m ρ) c).trans ?_)
  unfold Cert.KernelIdeal.Layer1.out h2
  have e0 : V3 m ρ c main_v22 = h1 m c := W3_v22 m ρ c
  have e1 : V3 m ρ c main_v34 = aggWith (h1 m c) (m ((c : Thread nD τ).loc main_arg1)) (m ((c : Thread nD τ).loc main_arg2)) (invDeg (m ((c : Thread nD τ).loc main_arg2))) := W3_v34 m ρ c
  have e2 : V3 m ρ c main_arg6 = (m ((c : Thread nD τ).loc main_arg6)) := W3_arg6 m ρ c
  have e3 : V3 m ρ c main_arg7 = (m ((c : Thread nD τ).loc main_arg7)) := W3_arg7 m ρ c
  have e4 : V3 m ρ c main_v35 = shapeCast S1x128 (m ((c : Thread nD τ).loc main_arg8)) shapeCasts_S128_S1x128 := W3_v35 m ρ c
  rw [e0, e1, e2, e3, e4, bias_row]

/-! ## The third host stretch and the third region -/

theorem W5_v36 (c : Dev nD) : W5 m ρ c (Proc.devRef .tc main_v36) = h2 m c :=
  (show StableHlo.after hostOps2 (W4 m ρ c) (Proc.devRef .tc main_v36) = W4 m ρ c (Proc.devRef .tc main_v36) by after_results_simp <;> rfl).trans (W4_v36 m ρ c)

theorem W5_v48 (c : Dev nD) : W5 m ρ c (Proc.devRef .tc main_v48) = aggWith (h2 m c) (m ((c : Thread nD τ).loc main_arg1)) (m ((c : Thread nD τ).loc main_arg2)) (invDeg (m ((c : Thread nD τ).loc main_arg2))) := by
  refine (show StableHlo.after hostOps2 (W4 m ρ c) (Proc.devRef .tc main_v48)
      = aggWith (W4 m ρ c (Proc.devRef .tc main_v36)) (W4 m ρ c (Proc.devRef .tc main_arg1)) (W4 m ρ c (Proc.devRef .tc main_arg2)) (W4 m ρ c (Proc.devRef .tc main_v8)) by
    after_results_simp <;> rfl).trans ?_
  rw [W4_v36, W4_arg1, W4_arg2, W4_v8]

theorem W5_arg9 (c : Dev nD) : W5 m ρ c (Proc.devRef .tc main_arg9) = (m ((c : Thread nD τ).loc main_arg9)) :=
  (show StableHlo.after hostOps2 (W4 m ρ c) (Proc.devRef .tc main_arg9) = W4 m ρ c (Proc.devRef .tc main_arg9) by after_results_simp <;> rfl).trans (W4_arg9 m ρ c)

theorem W5_arg10 (c : Dev nD) : W5 m ρ c (Proc.devRef .tc main_arg10) = (m ((c : Thread nD τ).loc main_arg10)) :=
  (show StableHlo.after hostOps2 (W4 m ρ c) (Proc.devRef .tc main_arg10) = W4 m ρ c (Proc.devRef .tc main_arg10) by after_results_simp <;> rfl).trans (W4_arg10 m ρ c)

theorem W5_v49 (c : Dev nD) : W5 m ρ c (Proc.devRef .tc main_v49) = shapeCast S1x64 (m ((c : Thread nD τ).loc main_arg11)) shapeCasts_S64_S1x64 := by
  refine (show StableHlo.after hostOps2 (W4 m ρ c) (Proc.devRef .tc main_v49)
      = shapeCast S1x64 (W4 m ρ c (Proc.devRef .tc main_arg11)) shapeCasts_S64_S1x64 by after_results_simp <;> rfl).trans ?_
  rw [W4_arg11]

/-- THE RESULT: the result buffer at the end of the fold is the three layers composed. -/
theorem W6_v50 (c : Dev nD) : W6 m ρ c (Proc.devRef .tc main_v50) = out m c := by
  refine (W6_arr m ρ c 5).trans ((Cert.KernelIdeal.Layer2.array_eq (V5 m ρ) c).trans ?_)
  unfold Cert.KernelIdeal.Layer2.out out
  have e0 : V5 m ρ c main_v36 = h2 m c := W5_v36 m ρ c
  have e1 : V5 m ρ c main_v48 = aggWith (h2 m c) (m ((c : Thread nD τ).loc main_arg1)) (m ((c : Thread nD τ).loc main_arg2)) (invDeg (m ((c : Thread nD τ).loc main_arg2))) := W5_v48 m ρ c
  have e2 : V5 m ρ c main_arg9 = (m ((c : Thread nD τ).loc main_arg9)) := W5_arg9 m ρ c
  have e3 : V5 m ρ c main_arg10 = (m ((c : Thread nD τ).loc main_arg10)) := W5_arg10 m ρ c
  have e4 : V5 m ρ c main_v49 = shapeCast S1x64 (m ((c : Thread nD τ).loc main_arg11)) shapeCasts_S64_S1x64 := W5_v49 m ρ c
  rw [e0, e1, e2, e3, e4, bias_row]

end Cert.KernelIdeal.Fold

end
-- ==== Proof.RefLayers.lean ====
/-
  The reference program's result, layer by layer.

  The reference applies three graph-convolution layers. Each layer first mean-aggregates the node features over the
  edges on the host — gather the source rows, add them into the destination rows, scale each row by the inverse of the
  (clamped) in-degree: `agg` — and then forms `h · Ws + agg h · Wn + b`, rectified in the first two layers. Here the
  program's composed result term is regrouped as that composition (`result_eq`: the same term, by unfolding), and each
  layer's dense stage is read entry by entry (`conv_eq`, `convOut_eq`): the two host products as sums over the
  contracted coordinate, the bias row broadcast down the rows, the rectifier as a maximum with the zero word.
  The aggregation is never opened: it stays one function of the features and the edge lists.
-/
import proofs.«108129_j7919919693881_1_alg».proof.Proof.Gen.ReferenceIdeal.Run
import proofs.«108129_j7919919693881_1_alg».proof.Proof.SageDense
import proofs.«108129_j7919919693881_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.Layers

open Cert.ReferenceIdeal Cert.ReferenceIdeal.Gen Cert.ReferenceIdeal.Value
open Idealize.ShloMosaic Idealize.ShloMosaic.TcCoe Idealize.SL.Sem Idealize.ShloMosaic.ValueIdx

section Terms

variable {F : FTy → Type} [FloatOps F]

/-- Mean aggregation over the edges, as the host computes it: the rows of `h` named by `src` (a negative index wrapped
    by the number of nodes) are added into the rows named by `dst`, and each row is multiplied by one over the larger
    of its in-degree and one. -/
def agg (h : (⟨S100000x128, .f32⟩ : BufTy).Contents (Elt F)) (src dst : (⟨S1600000, .i32⟩ : BufTy).Contents (Elt F)) :
    (⟨S100000x128, .f32⟩ : BufTy).Contents (Elt F) :=
  mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))))))

/-- A rectified layer: `max (h · ws + agg h · wn + b, 0)`, in the host's operations. -/
def conv (h : (⟨S100000x128, .f32⟩ : BufTy).Contents (Elt F)) (src dst : (⟨S1600000, .i32⟩ : BufTy).Contents (Elt F))
    (ws wn : (⟨S128x128, .f32⟩ : BufTy).Contents (Elt F)) (b : (⟨S128, .f32⟩ : BufTy).Contents (Elt F)) :
    (⟨S100000x128, .f32⟩ : BufTy).Contents (Elt F) :=
  maximumf (addf (addf (Host.dotGeneral dot_S100000x128_S128x128_S100000x128_1_0_0_1_n_n none h ws) (Host.dotGeneral dot_S100000x128_S128x128_S100000x128_1_0_0_1_n_n none (agg h src dst) wn)) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The last layer: `h · ws + agg h · wn + b`, no activation, 64 output columns. -/
def convOut (h : (⟨S100000x128, .f32⟩ : BufTy).Contents (Elt F)) (src dst : (⟨S1600000, .i32⟩ : BufTy).Contents (Elt F))
    (ws wn : (⟨S128x64, .f32⟩ : BufTy).Contents (Elt F)) (b : (⟨S64, .f32⟩ : BufTy).Contents (Elt F)) :
    (⟨S100000x64, .f32⟩ : BufTy).Contents (Elt F) :=
  addf (addf (Host.dotGeneral dot_S100000x128_S128x64_S100000x64_1_0_0_1_n_n none h ws) (Host.dotGeneral dot_S100000x128_S128x64_S100000x64_1_0_0_1_n_n none (agg h src dst) wn)) (broadcastInDim S100000x64 ![0, 1] bcast_S1x64_S100000x64_0_1 (broadcastInDim S1x64 ![1] bcast_S64_S1x64_1 b))

set_option maxRecDepth 8192 in
/-- The program's result is the three layers composed, each fed the previous layer's output and its aggregation. -/
theorem result_eq (m : (ℓ : Loc nD τ sig) → Buf (Elt F) ℓ) (c : Dev nD) :
    res_main_v64 m c
      = convOut (conv (conv (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
          (m ((c.tc : Thread nD τ).loc main_arg1)) (m ((c.tc : Thread nD τ).loc main_arg2))
          (m ((c.tc : Thread nD τ).loc main_arg6)) (m ((c.tc : Thread nD τ).loc main_arg7)) (m ((c.tc : Thread nD τ).loc main_arg8)))
        (m ((c.tc : Thread nD τ).loc main_arg1)) (m ((c.tc : Thread nD τ).loc main_arg2))
        (m ((c.tc : Thread nD τ).loc main_arg9)) (m ((c.tc : Thread nD τ).loc main_arg10)) (m ((c.tc : Thread nD τ).loc main_arg11)) := by
  unfold res_main_v64 convOut conv
  rfl

end Terms

/-! ## The dense stage at an entry -/

theorem dot128 : dot_S100000x128_S128x128_S100000x128_1_0_0_1_n_n = DotDims.plain 100000 128 128 := rfl
theorem dot64 : dot_S100000x128_S128x64_S100000x64_1_0_0_1_n_n = DotDims.plain 100000 128 64 := rfl

/-- The bias, broadcast to one row and then down the rows, read at `(p, q)` is `b q` (128 columns). -/
theorem bias128_at (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) := by
  rw [broadcastInDim_apply _ _ _ _ (ix2 (0 : Fin 1) q) (fun a => by match a with | ⟨0, _⟩ => rfl | ⟨1, _⟩ => rfl)]
  exact broadcastInDim_apply _ _ _ _ (ix1 q) (fun a => by match a with | ⟨0, _⟩ => rfl)

/-- The same for the last layer's 64 columns. -/
theorem bias64_at (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  rw [broadcastInDim_apply _ _ _ _ (ix2 (0 : Fin 1) q) (fun a => by match a with | ⟨0, _⟩ => rfl | ⟨1, _⟩ => rfl)]
  exact broadcastInDim_apply _ _ _ _ (ix1 q) (fun a => by match a with | ⟨0, _⟩ => rfl)

/-- A rectified layer, read entry by entry, is the specification's rectified dense stage of `h` and `agg h`. -/
theorem conv_eq (h : FVec Ideal S100000x128 .f32) (src dst : (⟨S1600000, .i32⟩ : BufTy).Contents (Elt Ideal))
    (ws wn : FVec Ideal S128x128 .f32) (b : FVec Ideal S128 .f32) :
    conv (F := Ideal) h src dst ws wn b = Cert.Sage.rectified h (agg (F := Ideal) h src dst) ws wn b := by
  refine Cert.Sage.ext_ix2 fun p q => ?_
  rw [Cert.Sage.rectified_ix2]
  unfold conv Cert.Sage.affineAt
  rw [maximumf_apply, addf_apply, addf_apply, bias128_at]
  simp only [Host.dotGeneral, dot128]
  rw [Cert.Lib.PlainDot.dotGeneral_apply, Cert.Lib.PlainDot.dotGeneral_apply]
  rfl

/-- The last layer, read entry by entry, is the specification's dense stage without activation. -/
theorem convOut_eq (h : FVec Ideal S100000x128 .f32) (src dst : (⟨S1600000, .i32⟩ : BufTy).Contents (Elt Ideal))
    (ws wn : FVec Ideal S128x64 .f32) (b : FVec Ideal S64 .f32) :
    convOut (F := Ideal) h src dst ws wn b = Cert.Sage.affine h (agg (F := Ideal) h src dst) ws wn b := by
  refine Cert.Sage.ext_ix2 fun p q => ?_
  rw [Cert.Sage.affine_ix2]
  unfold convOut Cert.Sage.affineAt
  rw [addf_apply, addf_apply, bias64_at]
  simp only [Host.dotGeneral, dot64]
  rw [Cert.Lib.PlainDot.dotGeneral_apply, Cert.Lib.PlainDot.dotGeneral_apply]

end Cert.ReferenceIdeal.Layers

end
-- ==== Proof.Bridge.lean ====
/-
  The two programs compute one function of the arguments.

  The idealized kernel's result is the three layers composed over the kernel program's host aggregation, the
  reference's result the three layers composed over the reference program's; layer by layer both are the
  specification's dense stage of the previous output and of its aggregation. The two aggregations are the same host
  operations with the same dimension numbers (`agg_eq`: the kernel keeps the inverse-degree column in a buffer and
  reuses it, the reference's term repeats it), so on memories that agree on the arguments the two results are equal.
-/
import proofs.«108129_j7919919693881_1_alg».proof.Proof.KernelFold
import proofs.«108129_j7919919693881_1_alg».proof.Proof.RefLayers

set_option maxRecDepth 16384

noncomputable section

namespace Cert.Bridge

open Idealize.ShloMosaic Idealize.ShloMosaic.TcCoe Idealize.SL.Sem

/-- The kernel program's aggregation, its scaling column the inverse degree, is the reference program's. -/
theorem agg_eq (h : FVec Ideal ⟨2, ![100000, 128]⟩ .f32) (src dst : (⟨Cert.KernelIdeal.S1600000, .i32⟩ : BufTy).Contents (Elt Ideal)) :
    Cert.KernelIdeal.Fold.aggWith (F := Ideal) h src dst (Cert.KernelIdeal.Fold.invDeg (F := Ideal) dst)
      = Cert.ReferenceIdeal.Layers.agg (F := Ideal) h src dst := rfl

/-- From memories agreeing on the arguments, the reference's result term is the kernel's composed layers. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v64 (F := Ideal) m' c = Cert.KernelIdeal.Fold.out m c := by
  obtain ⟨a0, a1, a2, a3, a4, a5, a6, a7, a8, a9, a10, a11⟩ := hagree
  rw [Cert.ReferenceIdeal.Layers.result_eq, a0, a1, a2, a3, a4, a5, a6, a7, a8, a9, a10, a11]
  rw [Cert.ReferenceIdeal.Layers.convOut_eq, Cert.ReferenceIdeal.Layers.conv_eq, Cert.ReferenceIdeal.Layers.conv_eq]
  unfold Cert.KernelIdeal.Fold.out Cert.KernelIdeal.Fold.h2 Cert.KernelIdeal.Fold.h1
  simp only [agg_eq]

end Cert.Bridge

end
-- ==== Proof.lean ====
/-
  Three mean-aggregating graph-convolution layers, as a kernel with the dense stage on the vector unit, against the
  plain array program.

  Both programs compute, for node features `x` on 100000 nodes, edge lists `src`, `dst` and three layers' weights,
      h₁ = max (x · Ws₀ + agg x · Wn₀ + b₀, 0),  h₂ = max (h₁ · Ws₁ + agg h₁ · Wn₁ + b₁, 0),  out = h₂ · Ws₂ + agg h₂ · Wn₂ + b₂,
  where `agg h` adds the rows of `h` named by `src` into the rows named by `dst` and scales each row by one over the
  larger of its in-degree and one. The aggregation is the same host computation in both programs. The kernel program
  runs each layer's dense stage as a kernel over 20 blocks of 5000 nodes (two matrix products into a zero accumulator,
  the bias row broadcast down the block, the rectifier as a maximum with zero); the reference forms it with two host
  matrix products over all nodes. On the extended reals each of these reads, entry by entry, as the same sums grouped
  the same way, so the two results agree without any law that would need the inputs finite.

  The pieces: the specification of the dense stage (SageDense); what each kernel region leaves in its output array
  (KernelLayer0 / 1 / 2); the kernel program's run with its result named, and that result read back through the host
  stretches and regions to the three layers composed (KernelRunResult, KernelFold); the reference's result regrouped
  as the three layers composed (RefLayers); and that the two compositions are one function of the arguments (Bridge).
-/
import proofs.«108129_j7919919693881_1_alg».proof.Defs
import proofs.«108129_j7919919693881_1_alg».proof.Proof.Gen.Kernel
import proofs.«108129_j7919919693881_1_alg».proof.Proof.KernelFrameP
import proofs.«108129_j7919919693881_1_alg».proof.Proof.Gen.KernelIdeal
import proofs.«108129_j7919919693881_1_alg».proof.Proof.KernelIdealFrameP
import proofs.«108129_j7919919693881_1_alg».proof.Proof.Gen.ReferenceIdeal
import proofs.«108129_j7919919693881_1_alg».proof.Proof.Gen.ReferenceIdeal.Run
import proofs.«108129_j7919919693881_1_alg».proof.Proof.Gen.Pre_finite_inputs
import proofs.«108129_j7919919693881_1_alg».proof.Proof.KernelRunResult
import proofs.«108129_j7919919693881_1_alg».proof.Proof.KernelFold
import proofs.«108129_j7919919693881_1_alg».proof.Proof.RefLayers
import proofs.«108129_j7919919693881_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel :=
  fun m ρ _ => Cert.Kernel.GenP.frame m ρ

/-- So does the idealized kernel program. -/
theorem frame_kernelIdeal : Cert.frame_KernelIdeal :=
  fun m ρ _ => Cert.KernelIdeal.GenP.frame m ρ

/-- The reference runs and leaves its arguments unchanged: its run, the result forgotten. -/
theorem frame_reference : Cert.frame_ReferenceIdeal :=
  fun m ρ _ => (θ_run Cert.ReferenceIdeal.defs _ _).mono (fun _ h c => (h c).2) (Cert.ReferenceIdeal.Value.run (F := Ideal) m ρ)

/-- From memories agreeing on the arguments both idealized programs end with the three layers composed as their
    result: the kernel program by its run and the read-back of its result buffer, the reference by its run and the
    regrouping of its result term, the two compositions equal. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono
      (fun _ h c => ⟨(h c).1.trans (Cert.KernelIdeal.Fold.W6_v50 m ρ c), (h c).2⟩)
      (Cert.KernelIdeal.Run.run_result (F := Ideal) m ρ)
  · exact (θ_run Cert.ReferenceIdeal.defs _ _).mono
      (fun _ h c => ⟨(h c).1.trans (Cert.Bridge.result_eq m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
